-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S64 .f32) (main_arg6 : FVec F S64x4 .f32) (main_arg7 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4 .f32 := Host.absf main_arg6
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x64 .f32) (main_arg3 : FVec F S64 .f32) (main_arg4 : FVec F S64x64 .f32) (main_arg5 : FVec F S64 .f32) (main_arg6 : FVec F S64x4 .f32) (main_arg7 : FVec F S4 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x256 : Shape := ⟨2, ![2000, 256]⟩
abbrev S2000x64 : Shape := ⟨2, ![2000, 64]⟩
abbrev S850000x64 : Shape := ⟨2, ![850000, 64]⟩
abbrev S1x64 : Shape := ⟨2, ![1, 64]⟩
abbrev S1x4 : Shape := ⟨2, ![1, 4]⟩
abbrev S50000x4 : Shape := ⟨2, ![50000, 4]⟩
abbrev S2000x4 : Shape := ⟨2, ![2000, 4]⟩

abbrev nBuf : Space → Nat
  | .hbm => 84
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x64, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x64, .f32⟩
  | .hbm, ⟨73, _⟩ => ⟨S850000x1, .f32⟩
  | .hbm, ⟨74, _⟩ => ⟨S850000x64, .f32⟩
  | .hbm, ⟨75, _⟩ => ⟨S850000x64, .f32⟩
  | .hbm, ⟨76, _⟩ => ⟨S_, .f32⟩
  | .hbm, ⟨77, _⟩ => ⟨S50000x64, .f32⟩
  | .hbm, ⟨78, _⟩ => ⟨S850000x1, .i32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S1x4, .f32⟩
  | .hbm, ⟨83, _⟩ => ⟨S50000x4, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x4, .f32⟩
  | .local _ .vmem, ⟨23, _⟩ => ⟨S1x4, .f32⟩
  | .local _ .vmem, ⟨24, _⟩ => ⟨S2000x4, .f32⟩
  | .local _ .vmem, ⟨25, _⟩ => ⟨S2000x4, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x4 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S4_S1x4 : S4.ShapeCasts S1x4
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S2000x4_S2000x4_0_0 : ∀ a, (![0, 0] : Fin 2 → Nat) a + S2000x4.size a ≤ S2000x4.size a
  h_S2000x4 : 0 < S2000x4.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  dot_S2000x64_S64x4_S2000x4_1_0_0_1_n_n_wf : DotDims.WF S2000x64 S64x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x4.size a ≤ S64x4.size a
  hwx4_1 : ∀ i : grid4.Coords, EltTy.bits .f32 = 32 ∨ (Rect.block (s := S64x4) S64x4.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x4.size a ≤ S1x4.size a
  hwx4_2 : ∀ i : grid4.Coords, EltTy.bits .f32 = 32 ∨ (Rect.block (s := S1x4) S1x4.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x4.size a ≤ S50000x4.size a
  hwx4_3 : ∀ i : grid4.Coords, EltTy.bits .f32 = 32 ∨ (Rect.block (s := S50000x4) S2000x4.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x4_S2000x4_1_0_0_1_n_n : DotDims S2000x64 S64x4 S2000x4 where
  lhsContracting := [1]
  rhsContracting := [0]
  lhsNonContracting := [0]
  rhsNonContracting := [1]
  lhsBatch := []
  rhsBatch := []
  wf := dot_S2000x64_S64x4_S2000x4_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S2000x4.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x4 : Shape := ⟨2, ![50000, 4]⟩
abbrev S1x4 : Shape := ⟨2, ![1, 4]⟩

abbrev nBuf : Space → Nat
  | .hbm => 123
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S50000x64, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S850000, .f32⟩
  | .hbm, ⟨70, _⟩ => ⟨S_, .f32⟩
  | .hbm, ⟨71, _⟩ => ⟨S50000, .f32⟩
  | .hbm, ⟨72, _⟩ => ⟨S850000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S850000, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x64, .f32⟩
  | .hbm, ⟨106, _⟩ => ⟨S850000x1, .f32⟩
  | .hbm, ⟨107, _⟩ => ⟨S850000x64, .f32⟩
  | .hbm, ⟨108, _⟩ => ⟨S850000x64, .f32⟩
  | .hbm, ⟨109, _⟩ => ⟨S_, .f32⟩
  | .hbm, ⟨110, _⟩ => ⟨S50000x64, .f32⟩
  | .hbm, ⟨111, _⟩ => ⟨S850000x1, .i32⟩
  | .hbm, ⟨112, _⟩ => ⟨S50000x64, .f32⟩
  | .hbm, ⟨113, _⟩ => ⟨S1x64, .f32⟩
  | .hbm, ⟨114, _⟩ => ⟨S50000x64, .f32⟩
  | .hbm, ⟨115, _⟩ => ⟨S50000x64, .f32⟩
  | .hbm, ⟨116, _⟩ => ⟨S_, .f32⟩
  | .hbm, ⟨117, _⟩ => ⟨S50000x64, .f32⟩
  | .hbm, ⟨118, _⟩ => ⟨S50000x64, .f32⟩
  | .hbm, ⟨119, _⟩ => ⟨S50000x4, .f32⟩
  | .hbm, ⟨120, _⟩ => ⟨S1x4, .f32⟩
  | .hbm, ⟨121, _⟩ => ⟨S50000x4, .f32⟩
  | .hbm, ⟨122, _⟩ => ⟨S50000x4, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  dot_S50000x256_S256x64_S50000x64_1_0_0_1_n_n_wf : DotDims.WF S50000x256 S256x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x4_S50000x4_1_0_0_1_n_n_wf : DotDims.WF S50000x64 S64x4 S50000x4 [1] [0] [0] [1] [] []

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf

class Facts : Prop extends Facts₀ where

variable [Facts]
-- ==== Proof.KernelRun.lean ====
/-
  The idealized kernel's run with its result named.

  @main is nine segments: four stretches of host operations and five pallas_calls.  The frame's launch theorem
  ends with every unscoped buffer at the contents the last segment boundary has; read at the result buffer this
  names what the run leaves there, beside the arguments, which end as launched.
-/
import proofs.«148142_j67516885893240_1_alg».proof.Proof.Gen.KernelIdeal.Frame

set_option maxRecDepth 16384

noncomputable section

namespace Cert.Gcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Gcn.Run

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«148142_j67516885893240_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.Payloads.lean ====
/-
  The five kernel bodies' stored values read at an index, at the ideal values.

  Each body works on a block of 2000 rows.  Read at the local index (p, q), and given that row p of the block
  is row r of the whole array:
  * a matmul body (blocks 0 and 2) is the whole product's entry at (r, q) — rounding the operands to bf16 on
    the way into the matrix unit is the identity on extended reals, and the zero accumulator adds nothing;
  * a bias-and-ReLU body (blocks 1 and 3) is max(a(r, q) + bias(q), 0), the bias a row [1, 64] repeated
    down the rows, which is how the host adds a broadcast row and takes the maximum with a broadcast zero;
  * the last body is the whole product's entry at (r, q) plus bias(q).
-/
import proofs.«148142_j67516885893240_1_alg».proof.Proof.Gen.KernelIdeal.Skeleton
import proofs.«148142_j67516885893240_1_alg».proof.Proof.LibRowBlocks
import proofs.«148142_j67516885893240_1_alg».proof.Proof.LibRows
import proofs.«148142_j67516885893240_1_alg».proof.Proof.LibRowBroadcast
import Idealize.ShloMosaic.Lib.ValueIdx
import Idealize.ShloMosaic.Lib.Pipeline.Value
import Idealize.ShloMosaic.PureOps.Ideal.Laws

noncomputable section

namespace Cert.Gcn.Pay

open Cert.KernelIdeal Cert.KernelIdeal.Gen Idealize.ShloMosaic Idealize.ShloMosaic.ValueIdx
open Cert.Lib.RowBlocks Cert.Lib.Rows Cert.Lib.RowBroadcast

/-- The first layer's matmul body: a block of 2000 rows of x times W1. -/
theorem pay0_apply (x0 : Vec Ideal S2000x256 .f32) (x1 : Vec Ideal S256x64 .f32)
    (X : FVec Ideal ⟨2, ![50000, 256]⟩ .f32) (Wt : FVec Ideal ⟨2, ![256, 64]⟩ .f32)
    (p : Fin 2000) (q : Fin 64) (r : Fin 50000)
    (hx : ∀ k : Fin 256, (x0 (ix2 p k) : EReal) = X (ix2 r k))
    (hw : ∀ k : Fin 256, (x1 (ix2 k q) : EReal) = Wt (ix2 k q)) :
    k0_pay1 (F := Ideal) x0 x1 (ix2 p q) = Host.dotGeneral (DotDims.plain 50000 256 64) none X Wt (ix2 r q) := by
  unfold k0_pay1
  exact matmul_rows_eq_dotGeneral none none X Wt (truncf .bf16 x0 bitsLt_bf16_f32) (truncf .bf16 x1 bitsLt_bf16_f32)
    p r q hx hw

/-- The second layer's matmul body: a block of 2000 rows of the hidden activations times W2. -/
theorem pay2_apply (x0 : Vec Ideal S2000x64 .f32) (x1 : Vec Ideal S64x64 .f32)
    (X : FVec Ideal ⟨2, ![50000, 64]⟩ .f32) (Wt : FVec Ideal ⟨2, ![64, 64]⟩ .f32)
    (p : Fin 2000) (q : Fin 64) (r : Fin 50000)
    (hx : ∀ k : Fin 64, (x0 (ix2 p k) : EReal) = X (ix2 r k))
    (hw : ∀ k : Fin 64, (x1 (ix2 k q) : EReal) = Wt (ix2 k q)) :
    k2_pay1 (F := Ideal) x0 x1 (ix2 p q) = Host.dotGeneral (DotDims.plain 50000 64 64) none X Wt (ix2 r q) := by
  unfold k2_pay1
  rw [shapeCast_self]
  exact matmul_rows_eq_dotGeneral none none X Wt (truncf .bf16 x0 bitsLt_bf16_f32) (truncf .bf16 x1 bitsLt_bf16_f32)
    p r q hx hw

/-- A bias-and-ReLU body against the host's form: the aggregated rows plus the broadcast bias row, then the
    maximum with the broadcast zero. -/
theorem pay1_apply (x0 : Vec Ideal S2000x64 .f32) (x1 : Vec Ideal S1x64 .f32)
    (A : FVec Ideal ⟨2, ![50000, 64]⟩ .f32) (b : FVec Ideal ⟨2, ![1, 64]⟩ .f32)
    (hb : (⟨2, ![1, 64]⟩ : Shape).BroadcastsInDim ⟨2, ![50000, 64]⟩ (![0, 1] : Fin 2 → Fin 2))
    (hz : (⟨0, ![]⟩ : Shape).BroadcastsInDim ⟨2, ![50000, 64]⟩ (![] : Fin 0 → Fin 2))
    (p : Fin 2000) (q : Fin 64) (r : Fin 50000)
    (hx : (x0 (ix2 p q) : EReal) = A (ix2 r q)) (hr : (x1 (ix2 0 q) : EReal) = b (ix2 0 q)) :
    k1_pay1 (F := Ideal) x0 x1 (ix2 p q)
      = maximumf (addf A (broadcastInDim ⟨2, ![50000, 64]⟩ (![0, 1] : Fin 2 → Fin 2) hb b))
          (broadcastInDim ⟨2, ![50000, 64]⟩ (![] : Fin 0 → Fin 2) hz (constant (F := Ideal) ⟨0, ![]⟩ .f32 0x00000000#32)) (ix2 r q) := by
  unfold k1_pay1
  rw [shapeCast_self, shapeCast_self]
  show FloatOps.maximumf (FloatOps.addf (x0 (ix2 p q)) (broadcastTo S2000x64 x1 broadcasts_S1x64_S2000x64 (ix2 p q))) _
    = FloatOps.maximumf (FloatOps.addf (A (ix2 r q)) (broadcastInDim ⟨2, ![50000, 64]⟩ (![0, 1] : Fin 2 → Fin 2) hb b (ix2 r q)))
        (broadcastInDim ⟨2, ![50000, 64]⟩ (![] : Fin 0 → Fin 2) hz (constant (F := Ideal) ⟨0, ![]⟩ .f32 0x00000000#32) (ix2 r q))
  rw [broadcastTo_row_apply, broadcastInDim_row_apply, broadcastInDim_scalar_apply _ _ _ (fun a => a.elim0), hx, hr]
  rfl

/-- The second bias-and-ReLU body: the same function of its blocks. -/
theorem pay3_apply (x0 : Vec Ideal S2000x64 .f32) (x1 : Vec Ideal S1x64 .f32)
    (A : FVec Ideal ⟨2, ![50000, 64]⟩ .f32) (b : FVec Ideal ⟨2, ![1, 64]⟩ .f32)
    (hb : (⟨2, ![1, 64]⟩ : Shape).BroadcastsInDim ⟨2, ![50000, 64]⟩ (![0, 1] : Fin 2 → Fin 2))
    (hz : (⟨0, ![]⟩ : Shape).BroadcastsInDim ⟨2, ![50000, 64]⟩ (![] : Fin 0 → Fin 2))
    (p : Fin 2000) (q : Fin 64) (r : Fin 50000)
    (hx : (x0 (ix2 p q) : EReal) = A (ix2 r q)) (hr : (x1 (ix2 0 q) : EReal) = b (ix2 0 q)) :
    k3_pay1 (F := Ideal) x0 x1 (ix2 p q)
      = maximumf (addf A (broadcastInDim ⟨2, ![50000, 64]⟩ (![0, 1] : Fin 2 → Fin 2) hb b))
          (broadcastInDim ⟨2, ![50000, 64]⟩ (![] : Fin 0 → Fin 2) hz (constant (F := Ideal) ⟨0, ![]⟩ .f32 0x00000000#32)) (ix2 r q) := by
  unfold k3_pay1
  rw [shapeCast_self, shapeCast_self]
  show FloatOps.maximumf (FloatOps.addf (x0 (ix2 p q)) (broadcastTo S2000x64 x1 broadcasts_S1x64_S2000x64 (ix2 p q))) _
    = FloatOps.maximumf (FloatOps.addf (A (ix2 r q)) (broadcastInDim ⟨2, ![50000, 64]⟩ (![0, 1] : Fin 2 → Fin 2) hb b (ix2 r q)))
        (broadcastInDim ⟨2, ![50000, 64]⟩ (![] : Fin 0 → Fin 2) hz (constant (F := Ideal) ⟨0, ![]⟩ .f32 0x00000000#32) (ix2 r q))
  rw [broadcastTo_row_apply, broadcastInDim_row_apply, broadcastInDim_scalar_apply _ _ _ (fun a => a.elim0), hx, hr]
  rfl

/-- The head's body: a block of 2000 rows of the hidden activations times Wfc, plus the bias row. -/
theorem pay4_apply (x0 : Vec Ideal S2000x64 .f32) (x1 : Vec Ideal S64x4 .f32) (x2 : Vec Ideal S1x4 .f32)
    (X : FVec Ideal ⟨2, ![50000, 64]⟩ .f32) (Wt : FVec Ideal ⟨2, ![64, 4]⟩ .f32) (b : FVec Ideal ⟨2, ![1, 4]⟩ .f32)
    (hb : (⟨2, ![1, 4]⟩ : Shape).BroadcastsInDim ⟨2, ![50000, 4]⟩ (![0, 1] : Fin 2 → Fin 2))
    (p : Fin 2000) (q : Fin 4) (r : Fin 50000)
    (hx : ∀ k : Fin 64, (x0 (ix2 p k) : EReal) = X (ix2 r k))
    (hw : ∀ k : Fin 64, (x1 (ix2 k q) : EReal) = Wt (ix2 k q))
    (hr : (x2 (ix2 0 q) : EReal) = b (ix2 0 q)) :
    k4_pay1 (F := Ideal) x0 x1 x2 (ix2 p q)
      = addf (Host.dotGeneral (DotDims.plain 50000 64 4) none X Wt)
          (broadcastInDim ⟨2, ![50000, 4]⟩ (![0, 1] : Fin 2 → Fin 2) hb b) (ix2 r q) := by
  unfold k4_pay1
  rw [shapeCast_self, shapeCast_self]
  show FloatOps.addf (matmul dot_S2000x64_S64x4_S2000x4_1_0_0_1_n_n none (truncf .bf16 x0 bitsLt_bf16_f32) (truncf .bf16 x1 bitsLt_bf16_f32)
        (constant S2000x4 .f32 0x00000000#32) (ix2 p q)) (broadcastTo S2000x4 x2 broadcasts_S1x4_S2000x4 (ix2 p q))
    = FloatOps.addf (Host.dotGeneral (DotDims.plain 50000 64 4) none X Wt (ix2 r q))
        (broadcastInDim ⟨2, ![50000, 4]⟩ (![0, 1] : Fin 2 → Fin 2) hb b (ix2 r q))
  rw [broadcastTo_row_apply, broadcastInDim_row_apply, hr]
  exact congrArg (fun z : EReal => z + b (ix2 0 q))
    (matmul_rows_eq_dotGeneral none none X Wt (truncf .bf16 x0 bitsLt_bf16_f32) (truncf .bf16 x1 bitsLt_bf16_f32)
      p r q hx hw)

end Cert.Gcn.Pay

end
-- ==== Proof.Region0.lean ====
/-
  The first layer's linear map, computed block by block, is the whole matrix product.

  The pallas_call walks 25 blocks of 2000 rows of x; at block t it multiplies rows 2000 t … 2000 t + 1999 by
  the whole W1 and writes the 2000 × 64 result to the same rows of its output.  Row p of block t is row
  2000 t + p of x, so what block t writes is block t of the host's whole product x · W1 (the payload read at
  an index), and the 25 blocks cover all 50000 rows: the output array ends holding x · W1, whatever the
  contents the call finds in its operands.
-/
import proofs.«148142_j67516885893240_1_alg».proof.Proof.Gen.KernelIdeal.Frame
import proofs.«148142_j67516885893240_1_alg».proof.Proof.Payloads

set_option maxRecDepth 16384

noncomputable section

namespace Cert.Gcn.R0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The call's left operand, all of x, as the call finds it. -/
abbrev lhs (c : Dev nD) : FVec Ideal ⟨2, ![50000, 256]⟩ .f32 := V c main_arg0
/-- The call's right operand, W1, as the call finds it. -/
abbrev rhs (c : Dev nD) : FVec Ideal ⟨2, ![256, 64]⟩ .f32 := V c main_arg2

theorem hz : (![0, 0] : Fin 2 → Nat) = fun _ => 0 := funext fun a => by fin_cases a <;> rfl

/-- The printed index maps over the grid: block t of x and of the output sit at row block t, column block 0;
    W1 is one block. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row block is some grid point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- What grid point t writes back is block t of the whole product of the operands as the call finds them. -/
theorem flushed_eq (c : Dev nD) (t : Fin cfg0.N) :
    (dat0 (F := Ideal) V c).flushed 2 t = ((cfg0.win 2).blk t).view.read (Elt Ideal)
      (Host.dotGeneral (F := Ideal) (DotDims.plain 50000 256 64) none (lhs V c) (rhs V c)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  have hr : win0_2.index t (0 : Fin 2) * 2000 + p.val < 50000 := by have := p.isLt; omega
  have hemb : ((cfg0.win 2).blk t).view.emb (ix2 p q) = ix2 ⟨win0_2.index t (0 : Fin 2) * 2000 + p.val, hr⟩ q := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 64 + 1 * q.val = q.val; omega
  show k0_pay1 (iblk0 V c 0 t) (iblk0 V c 1 t) (ix2 p q)
    = Host.dotGeneral (F := Ideal) (DotDims.plain 50000 256 64) none (lhs V c) (rhs V c) (((cfg0.win 2).blk t).view.emb (ix2 p q))
  rw [hemb]
  refine Cert.Gcn.Pay.pay0_apply (iblk0 V c 0 t) (iblk0 V c 1 t) (lhs V c) (rhs V c) p q _ (fun k => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = win0_2.index t (0 : Fin 2) * 2000 + p.val; omega
    | ⟨1, _⟩ => show win0_0.index t (1 : Fin 2) * 256 + 1 * k.val = k.val; omega
  · show V c main_arg2 (((cfg0.win 1).blk t).view.emb (ix2 k q)) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 64 + 1 * q.val = q.val; omega

/-- An index of the output array is in block t iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v29).slice (win0_2.rect t)).set ↔ _
  rw [View.set_slice_whole, Rect.mem_set_unit]
  exact Iff.rfl

/-- The 25 blocks cover the output array: row r is in block r / 2000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the call its output array holds the whole product of its two operands as it found them. -/
theorem array (c : Dev nD) : (dat0 (F := Ideal) V c).arrAt 2 cfg0.N
    = Host.dotGeneral (F := Ideal) (DotDims.plain 50000 256 64) none (lhs V c) (rhs V c) :=
  (dat0 V c).arrAt_eq_of_cover 2 _ (fun t _ => flushed_eq V c t) cover

end Cert.Gcn.R0

end
-- ==== Proof.Region1.lean ====
/-
  The first layer's bias and ReLU, computed block by block, is the host's whole-array form.

  The pallas_call walks 25 blocks of 2000 rows of the aggregated features; at block t it adds the bias row to
  every row of the block and takes the maximum with zero.  Row p of block t is row 2000 t + p of the array and
  the bias row is one block, so what block t writes is block t of the host's max(agg + broadcast bias,
  broadcast 0), and the 25 blocks cover all 50000 rows.
-/
import proofs.«148142_j67516885893240_1_alg».proof.Proof.Gen.KernelIdeal.Frame
import proofs.«148142_j67516885893240_1_alg».proof.Proof.Payloads

set_option maxRecDepth 16384

noncomputable section

namespace Cert.Gcn.R1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The aggregated features, as the call finds them. -/
abbrev agg (c : Dev nD) : FVec Ideal ⟨2, ![50000, 64]⟩ .f32 := V c main_v42
/-- The bias as a row [1, 64], as the call finds it. -/
abbrev bias (c : Dev nD) : FVec Ideal ⟨2, ![1, 64]⟩ .f32 := V c main_v43

/-- The host's form of the layer's last two operations on whole arrays. -/
abbrev hostForm (hb : (⟨2, ![1, 64]⟩ : Shape).BroadcastsInDim ⟨2, ![50000, 64]⟩ (![0, 1] : Fin 2 → Fin 2))
    (hs : (⟨0, ![]⟩ : Shape).BroadcastsInDim ⟨2, ![50000, 64]⟩ (![] : Fin 0 → Fin 2)) (c : Dev nD) :
    FVec Ideal ⟨2, ![50000, 64]⟩ .f32 :=
  maximumf (addf (agg V c) (broadcastInDim ⟨2, ![50000, 64]⟩ (![0, 1] : Fin 2 → Fin 2) hb (bias V c)))
    (broadcastInDim ⟨2, ![50000, 64]⟩ (![] : Fin 0 → Fin 2) hs (constant (F := Ideal) ⟨0, ![]⟩ .f32 0x00000000#32))

theorem hz : (![0, 0] : Fin 2 → Nat) = fun _ => 0 := funext fun a => by fin_cases a <;> rfl

/-- The printed index maps over the grid: block t of the input and of the output sit at row block t, column
    block 0; the bias row is one block. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

/-- Every row block is some grid point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- What grid point t writes back is block t of the host's form of the operands as the call finds them. -/
theorem flushed_eq (hb : (⟨2, ![1, 64]⟩ : Shape).BroadcastsInDim ⟨2, ![50000, 64]⟩ (![0, 1] : Fin 2 → Fin 2))
    (hs : (⟨0, ![]⟩ : Shape).BroadcastsInDim ⟨2, ![50000, 64]⟩ (![] : Fin 0 → Fin 2)) (c : Dev nD) (t : Fin cfg1.N) :
    (dat1 (F := Ideal) V c).flushed 2 t = ((cfg1.win 2).blk t).view.read (Elt Ideal) (hostForm V hb hs c) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  have hr : win1_2.index t (0 : Fin 2) * 2000 + p.val < 50000 := by have := p.isLt; omega
  have hemb : ((cfg1.win 2).blk t).view.emb (ix2 p q) = ix2 ⟨win1_2.index t (0 : Fin 2) * 2000 + p.val, hr⟩ q := by
    funext a; apply Fin.ext
    match a with
    | ⟨0, _⟩ => show win1_2.index t (0 : Fin 2) * 2000 + 1 * p.val = win1_2.index t (0 : Fin 2) * 2000 + p.val; omega
    | ⟨1, _⟩ => show win1_2.index t (1 : Fin 2) * 64 + 1 * q.val = q.val; omega
  show k1_pay1 (iblk1 V c 0 t) (iblk1 V c 1 t) (ix2 p q) = hostForm V hb hs c (((cfg1.win 2).blk t).view.emb (ix2 p q))
  rw [hemb]
  refine Cert.Gcn.Pay.pay1_apply (iblk1 V c 0 t) (iblk1 V c 1 t) (agg V c) (bias V c) hb hs p q _ ?_ ?_
  · show V c main_v42 (((cfg1.win 0).blk t).view.emb (ix2 p q)) = _
    refine congrArg (V c main_v42) ?_
    funext a; apply Fin.ext
    match a with
    | ⟨0, _⟩ => show win1_0.index t (0 : Fin 2) * 2000 + 1 * p.val = win1_2.index t (0 : Fin 2) * 2000 + p.val; omega
    | ⟨1, _⟩ => show win1_0.index t (1 : Fin 2) * 64 + 1 * q.val = q.val; omega
  · show V c main_v43 (((cfg1.win 1).blk t).view.emb (ix2 0 q)) = _
    refine congrArg (V c main_v43) ?_
    funext a; apply Fin.ext
    match a with
    | ⟨0, _⟩ => show win1_1.index t (0 : Fin 2) * 1 + 1 * 0 = 0; omega
    | ⟨1, _⟩ => show win1_1.index t (1 : Fin 2) * 64 + 1 * q.val = q.val; omega

/-- An index of the output array is in block t iff each coordinate is in the block's range on its axis. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v44).slice (win1_2.rect t)).set ↔ _
  rw [View.set_slice_whole, Rect.mem_set_unit]
  exact Iff.rfl

/-- The 25 blocks cover the output array: row r is in block r / 2000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the call its output array holds the host's form of its two operands as it found them. -/
theorem array (hb : (⟨2, ![1, 64]⟩ : Shape).BroadcastsInDim ⟨2, ![50000, 64]⟩ (![0, 1] : Fin 2 → Fin 2))
    (hs : (⟨0, ![]⟩ : Shape).BroadcastsInDim ⟨2, ![50000, 64]⟩ (![] : Fin 0 → Fin 2)) (c : Dev nD) :
    (dat1 (F := Ideal) V c).arrAt 2 cfg1.N = hostForm V hb hs c :=
  (dat1 V c).arrAt_eq_of_cover 2 _ (fun t _ => flushed_eq V hb hs c t) cover

end Cert.Gcn.R1

end
-- ==== Proof.Region2.lean ====
/-
  The second layer's linear map, computed block by block, is the whole matrix product.

  The pallas_call walks 25 blocks of 2000 rows of the hidden activations; at block t it multiplies rows
  2000 t … 2000 t + 1999 by the whole W2 and writes the 2000 × 64 result to the same rows of its output.  What
  block t writes is block t of the host's whole product, and the 25 blocks cover all 50000 rows.
-/
import proofs.«148142_j67516885893240_1_alg».proof.Proof.Gen.KernelIdeal.Frame
import proofs.«148142_j67516885893240_1_alg».proof.Proof.Payloads

set_option maxRecDepth 16384

noncomputable section

namespace Cert.Gcn.R2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The call's left operand, the first layer's activations, as the call finds it. -/
abbrev lhs (c : Dev nD) : FVec Ideal ⟨2, ![50000, 64]⟩ .f32 := V c main_v44
/-- The call's right operand, W2, as the call finds it. -/
abbrev rhs (c : Dev nD) : FVec Ideal ⟨2, ![64, 64]⟩ .f32 := V c main_arg4

theorem hz : (![0, 0] : Fin 2 → Nat) = fun _ => 0 := funext fun a => by fin_cases a <;> rfl

/-- The printed index maps over the grid: block t of the input and of the output sit at row block t, column
    block 0; W2 is one block. -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

/-- Every row block is some grid point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- What grid point t writes back is block t of the whole product of the operands as the call finds them. -/
theorem flushed_eq (c : Dev nD) (t : Fin cfg2.N) :
    (dat2 (F := Ideal) V c).flushed 2 t = ((cfg2.win 2).blk t).view.read (Elt Ideal)
      (Host.dotGeneral (F := Ideal) (DotDims.plain 50000 64 64) none (lhs V c) (rhs V c)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  have hr : win2_2.index t (0 : Fin 2) * 2000 + p.val < 50000 := by have := p.isLt; omega
  have hemb : ((cfg2.win 2).blk t).view.emb (ix2 p q) = ix2 ⟨win2_2.index t (0 : Fin 2) * 2000 + p.val, hr⟩ q := by
    funext a; apply Fin.ext
    match a with
    | ⟨0, _⟩ => show win2_2.index t (0 : Fin 2) * 2000 + 1 * p.val = win2_2.index t (0 : Fin 2) * 2000 + p.val; omega
    | ⟨1, _⟩ => show win2_2.index t (1 : Fin 2) * 64 + 1 * q.val = q.val; omega
  show k2_pay1 (iblk2 V c 0 t) (iblk2 V c 1 t) (ix2 p q)
    = Host.dotGeneral (F := Ideal) (DotDims.plain 50000 64 64) none (lhs V c) (rhs V c) (((cfg2.win 2).blk t).view.emb (ix2 p q))
  rw [hemb]
  refine Cert.Gcn.Pay.pay2_apply (iblk2 V c 0 t) (iblk2 V c 1 t) (lhs V c) (rhs V c) p q _ (fun k => ?_) (fun k => ?_)
  · show V c main_v44 (((cfg2.win 0).blk t).view.emb (ix2 p k)) = _
    refine congrArg (V c main_v44) ?_
    funext a; apply Fin.ext
    match a with
    | ⟨0, _⟩ => show win2_0.index t (0 : Fin 2) * 2000 + 1 * p.val = win2_2.index t (0 : Fin 2) * 2000 + p.val; omega
    | ⟨1, _⟩ => show win2_0.index t (1 : Fin 2) * 64 + 1 * k.val = k.val; omega
  · show V c main_arg4 (((cfg2.win 1).blk t).view.emb (ix2 k q)) = _
    refine congrArg (V c main_arg4) ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega

/-- An index of the output array is in block t iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v45).slice (win2_2.rect t)).set ↔ _
  rw [View.set_slice_whole, Rect.mem_set_unit]
  exact Iff.rfl

/-- The 25 blocks cover the output array: row r is in block r / 2000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the call its output array holds the whole product of its two operands as it found them. -/
theorem array (c : Dev nD) : (dat2 (F := Ideal) V c).arrAt 2 cfg2.N
    = Host.dotGeneral (F := Ideal) (DotDims.plain 50000 64 64) none (lhs V c) (rhs V c) :=
  (dat2 V c).arrAt_eq_of_cover 2 _ (fun t _ => flushed_eq V c t) cover

end Cert.Gcn.R2

end
-- ==== Proof.Region3.lean ====
/-
  The second layer's bias and ReLU, computed block by block, is the host's whole-array form.

  As in the first layer: 25 blocks of 2000 rows of the aggregated features, the bias row added to every row,
  the maximum with zero; what block t writes is block t of the host's max(agg + broadcast bias, broadcast 0),
  and the 25 blocks cover all 50000 rows.
-/
import proofs.«148142_j67516885893240_1_alg».proof.Proof.Gen.KernelIdeal.Frame
import proofs.«148142_j67516885893240_1_alg».proof.Proof.Payloads

set_option maxRecDepth 16384

noncomputable section

namespace Cert.Gcn.R3

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The aggregated features, as the call finds them. -/
abbrev agg (c : Dev nD) : FVec Ideal ⟨2, ![50000, 64]⟩ .f32 := V c main_v58
/-- The bias as a row [1, 64], as the call finds it. -/
abbrev bias (c : Dev nD) : FVec Ideal ⟨2, ![1, 64]⟩ .f32 := V c main_v59

/-- The host's form of the layer's last two operations on whole arrays. -/
abbrev hostForm (hb : (⟨2, ![1, 64]⟩ : Shape).BroadcastsInDim ⟨2, ![50000, 64]⟩ (![0, 1] : Fin 2 → Fin 2))
    (hs : (⟨0, ![]⟩ : Shape).BroadcastsInDim ⟨2, ![50000, 64]⟩ (![] : Fin 0 → Fin 2)) (c : Dev nD) :
    FVec Ideal ⟨2, ![50000, 64]⟩ .f32 :=
  maximumf (addf (agg V c) (broadcastInDim ⟨2, ![50000, 64]⟩ (![0, 1] : Fin 2 → Fin 2) hb (bias V c)))
    (broadcastInDim ⟨2, ![50000, 64]⟩ (![] : Fin 0 → Fin 2) hs (constant (F := Ideal) ⟨0, ![]⟩ .f32 0x00000000#32))

theorem hz : (![0, 0] : Fin 2 → Nat) = fun _ => 0 := funext fun a => by fin_cases a <;> rfl

/-- The printed index maps over the grid: block t of the input and of the output sit at row block t, column
    block 0; the bias row is one block. -/
theorem idx_facts : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 24 :=
  (by decide +kernel : ∀ t : Fin grid3.N, _)

/-- Every row block is some grid point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- What grid point t writes back is block t of the host's form of the operands as the call finds them. -/
theorem flushed_eq (hb : (⟨2, ![1, 64]⟩ : Shape).BroadcastsInDim ⟨2, ![50000, 64]⟩ (![0, 1] : Fin 2 → Fin 2))
    (hs : (⟨0, ![]⟩ : Shape).BroadcastsInDim ⟨2, ![50000, 64]⟩ (![] : Fin 0 → Fin 2)) (c : Dev nD) (t : Fin cfg3.N) :
    (dat3 (F := Ideal) V c).flushed 2 t = ((cfg3.win 2).blk t).view.read (Elt Ideal) (hostForm V hb hs c) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  obtain ⟨e0, e1, e2, e3, e4, e5⟩ := idx_facts t
  funext j
  obtain ⟨p, q, rfl⟩ : ∃ (p : Fin 2000) (q : Fin 64), j = ix2 p q := ⟨j 0, j 1, eq_ix2 j⟩
  have hr : win3_2.index t (0 : Fin 2) * 2000 + p.val < 50000 := by have := p.isLt; omega
  have hemb : ((cfg3.win 2).blk t).view.emb (ix2 p q) = ix2 ⟨win3_2.index t (0 : Fin 2) * 2000 + p.val, hr⟩ q := by
    funext a; apply Fin.ext
    match a with
    | ⟨0, _⟩ => show win3_2.index t (0 : Fin 2) * 2000 + 1 * p.val = win3_2.index t (0 : Fin 2) * 2000 + p.val; omega
    | ⟨1, _⟩ => show win3_2.index t (1 : Fin 2) * 64 + 1 * q.val = q.val; omega
  show k3_pay1 (iblk3 V c 0 t) (iblk3 V c 1 t) (ix2 p q) = hostForm V hb hs c (((cfg3.win 2).blk t).view.emb (ix2 p q))
  rw [hemb]
  refine Cert.Gcn.Pay.pay3_apply (iblk3 V c 0 t) (iblk3 V c 1 t) (agg V c) (bias V c) hb hs p q _ ?_ ?_
  · show V c main_v58 (((cfg3.win 0).blk t).view.emb (ix2 p q)) = _
    refine congrArg (V c main_v58) ?_
    funext a; apply Fin.ext
    match a with
    | ⟨0, _⟩ => show win3_0.index t (0 : Fin 2) * 2000 + 1 * p.val = win3_2.index t (0 : Fin 2) * 2000 + p.val; omega
    | ⟨1, _⟩ => show win3_0.index t (1 : Fin 2) * 64 + 1 * q.val = q.val; omega
  · show V c main_v59 (((cfg3.win 1).blk t).view.emb (ix2 0 q)) = _
    refine congrArg (V c main_v59) ?_
    funext a; apply Fin.ext
    match a with
    | ⟨0, _⟩ => show win3_1.index t (0 : Fin 2) * 1 + 1 * 0 = 0; omega
    | ⟨1, _⟩ => show win3_1.index t (1 : Fin 2) * 64 + 1 * q.val = q.val; omega

/-- An index of the output array is in block t iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v60).slice (win3_2.rect t)).set ↔ _
  rw [View.set_slice_whole, Rect.mem_set_unit]
  exact Iff.rfl

/-- The 25 blocks cover the output array: row r is in block r / 2000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- After the call its output array holds the host's form of its two operands as it found them. -/
theorem array (hb : (⟨2, ![1, 64]⟩ : Shape).BroadcastsInDim ⟨2, ![50000, 64]⟩ (![0, 1] : Fin 2 → Fin 2))
    (hs : (⟨0, ![]⟩ : Shape).BroadcastsInDim ⟨2, ![50000, 64]⟩ (![] : Fin 0 → Fin 2)) (c : Dev nD) :
    (dat3 (F := Ideal) V c).arrAt 2 cfg3.N = hostForm V hb hs c :=
  (dat3 V c).arrAt_eq_of_cover 2 _ (fun t _ => flushed_eq V hb hs c t) cover

end Cert.Gcn.R3

end
-- ==== Proof.Region4.lean ====
/-
  The head, computed block by block, is the host's whole-array form.

  The pallas_call walks 25 blocks of 2000 rows of the second layer's activations; at block t it multiplies rows
  2000 t … 2000 t + 1999 by the whole Wfc, adds the bias row to every row and writes the 2000 × 4 result to the
  same rows of its output.  What block t writes is block t of the host's product plus broadcast bias, and the 25
  blocks cover all 50000 rows.
-/
import proofs.«148142_j67516885893240_1_alg».proof.Proof.Gen.KernelIdeal.Frame
import proofs.«148142_j67516885893240_1_alg».proof.Proof.Payloads

set_option maxRecDepth 16384

noncomputable section

namespace Cert.Gcn.R4

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The call's left operand, the second layer's activations, as the call finds it. -/
abbrev lhs (c : Dev nD) : FVec Ideal ⟨2, ![50000, 64]⟩ .f32 := V c main_v60
/-- The call's right operand, Wfc, as the call finds it. -/
abbrev rhs (c : Dev nD) : FVec Ideal ⟨2, ![64, 4]⟩ .f32 := V c main_arg6
/-- The bias as a row [1, 4], as the call finds it. -/
abbrev bias (c : Dev nD) : FVec Ideal ⟨2, ![1, 4]⟩ .f32 := V c main_v61

/-- The host's form of the head on whole arrays. -/
abbrev hostForm (hb : (⟨2, ![1, 4]⟩ : Shape).BroadcastsInDim ⟨2, ![50000, 4]⟩ (![0, 1] : Fin 2 → Fin 2)) (c : Dev nD) :
    FVec Ideal ⟨2, ![50000, 4]⟩ .f32 :=
  addf (Host.dotGeneral (F := Ideal) (DotDims.plain 50000 64 4) none (lhs V c) (rhs V c))
    (broadcastInDim ⟨2, ![50000, 4]⟩ (![0, 1] : Fin 2 → Fin 2) hb (bias V c))

theorem hz : (![0, 0] : Fin 2 → Nat) = fun _ => 0 := funext fun a => by fin_cases a <;> rfl

/-- The printed index maps over the grid: block t of the input and of the output sit at row block t, column
    block 0; Wfc and the bias row are one block each. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 24 :=
  (by decide +kernel : ∀ t : Fin grid4.N, _)

/-- Every row block is some grid point's. -/
theorem idx_onto : ∀ q0 : Fin 25, ∃ t : Fin cfg4.N, win4_3.index t = ![q0.val, 0] :=
  (by decide +kernel : ∀ q0 : Fin 25, ∃ t : Fin grid4.N, win4_3.index t = ![q0.val, 0])

/-- What grid point t writes back is block t of the host's form of the operands as the call finds them. -/
theorem flushed_eq (hb : (⟨2, ![1, 4]⟩ : Shape).BroadcastsInDim ⟨2, ![50000, 4]⟩ (![0, 1] : Fin 2 → Fin 2))
    (c : Dev nD) (t : Fin cfg4.N) :
    (dat4 (F := Ideal) V c).flushed 3 t = ((cfg4.win 3).blk t).view.read (Elt Ideal) (hostForm V hb c) := by
  show (cfg4.win 3).cut (grid4.coords t) ((dat4 V c).after 3 t) = _
  rw [after4_3]
  unfold out4_3
  rw [View.canon_unit_zero hz]
  simp only [View.ld_unit_zero (S := S2000x64) hz, View.ld_unit_zero (S := S64x4) hz, View.ld_unit_zero (S := S1x4) hz]
  obtain ⟨e0, e1, e2, e3, e4, e5, e6, e7⟩ := idx_facts t
  funext j
  obtain ⟨p, q, rfl⟩ : ∃ (p : Fin 2000) (q : Fin 4), j = ix2 p q := ⟨j 0, j 1, eq_ix2 j⟩
  have hr : win4_3.index t (0 : Fin 2) * 2000 + p.val < 50000 := by have := p.isLt; omega
  have hemb : ((cfg4.win 3).blk t).view.emb (ix2 p q) = ix2 ⟨win4_3.index t (0 : Fin 2) * 2000 + p.val, hr⟩ q := by
    funext a; apply Fin.ext
    match a with
    | ⟨0, _⟩ => show win4_3.index t (0 : Fin 2) * 2000 + 1 * p.val = win4_3.index t (0 : Fin 2) * 2000 + p.val; omega
    | ⟨1, _⟩ => show win4_3.index t (1 : Fin 2) * 4 + 1 * q.val = q.val; omega
  show k4_pay1 (iblk4 V c 0 t) (iblk4 V c 1 t) (iblk4 V c 2 t) (ix2 p q) = hostForm V hb c (((cfg4.win 3).blk t).view.emb (ix2 p q))
  rw [hemb]
  refine Cert.Gcn.Pay.pay4_apply (iblk4 V c 0 t) (iblk4 V c 1 t) (iblk4 V c 2 t) (lhs V c) (rhs V c) (bias V c) hb p q _
    (fun k => ?_) (fun k => ?_) ?_
  · show V c main_v60 (((cfg4.win 0).blk t).view.emb (ix2 p k)) = _
    refine congrArg (V c main_v60) ?_
    funext a; apply Fin.ext
    match a with
    | ⟨0, _⟩ => show win4_0.index t (0 : Fin 2) * 2000 + 1 * p.val = win4_3.index t (0 : Fin 2) * 2000 + p.val; omega
    | ⟨1, _⟩ => show win4_0.index t (1 : Fin 2) * 64 + 1 * k.val = k.val; omega
  · show V c main_arg6 (((cfg4.win 1).blk t).view.emb (ix2 k q)) = _
    refine congrArg (V c main_arg6) ?_
    funext a; apply Fin.ext
    match a with
    | ⟨0, _⟩ => show win4_1.index t (0 : Fin 2) * 64 + 1 * k.val = k.val; omega
    | ⟨1, _⟩ => show win4_1.index t (1 : Fin 2) * 4 + 1 * q.val = q.val; omega
  · show V c main_v61 (((cfg4.win 2).blk t).view.emb (ix2 0 q)) = _
    refine congrArg (V c main_v61) ?_
    funext a; apply Fin.ext
    match a with
    | ⟨0, _⟩ => show win4_2.index t (0 : Fin 2) * 1 + 1 * 0 = 0; omega
    | ⟨1, _⟩ => show win4_2.index t (1 : Fin 2) * 4 + 1 * q.val = q.val; omega

/-- An index of the output array is in block t iff each coordinate is in the block's range on its axis. -/
theorem mem_blk (t : Fin cfg4.N) (i : S50000x4.Idx) :
    i ∈ ((cfg4.win 3).blk t).view.set ↔ ∀ a : Fin 2, win4_3.index t a * S2000x4.size a ≤ (i a).val ∧ (i a).val < win4_3.index t a * S2000x4.size a + S2000x4.size a := by
  show i ∈ ((View.whole main_v62).slice (win4_3.rect t)).set ↔ _
  rw [View.set_slice_whole, Rect.mem_set_unit]
  exact Iff.rfl

/-- The 25 blocks cover the output array: row r is in block r / 2000. -/
theorem cover (i : S50000x4.Idx) : ∃ t : Fin cfg4.N, (cfg4.win 3).flush t = true ∧ i ∈ ((cfg4.win 3).blk t).view.set := by
  have hi0 : (i 0).val < 50000 := (i 0).isLt
  have hi1 : (i 1).val < 4 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 4 ≤ (i 1).val ∧ (i 1).val < win4_3.index t (1 : Fin 2) * 4 + 4; omega

/-- After the call its output array holds the host's form of its three operands as it found them. -/
theorem array (hb : (⟨2, ![1, 4]⟩ : Shape).BroadcastsInDim ⟨2, ![50000, 4]⟩ (![0, 1] : Fin 2 → Fin 2)) (c : Dev nD) :
    (dat4 (F := Ideal) V c).arrAt 3 cfg4.N = hostForm V hb c :=
  (dat4 V c).arrAt_eq_of_cover 3 _ (fun t _ => flushed_eq V hb c t) cover

end Cert.Gcn.R4

end
-- ==== Proof.LibRowForms.lean ====
/-
  A vector laid out as a row in two ways.

  A vector [C] becomes the row [1, C] either by a reshape or by a broadcast onto axis 1: both read, at (0, c),
  the vector at c, so they are the same row.
-/
import proofs.«148142_j67516885893240_1_alg».proof.Proof.LibRows

noncomputable section

namespace Cert.Lib.RowForms

open Idealize.ShloMosaic Idealize.ShloMosaic.ValueIdx

variable {α : Type}

/-- A vector [C] broadcast onto axis 1 of [1, C] is the vector reshaped to [1, C]. -/
theorem broadcastInDim_row_eq_shapeCast {C : Nat} (b : (⟨1, ![C]⟩ : Shape).Idx → α)
    (hb : (⟨1, ![C]⟩ : Shape).BroadcastsInDim ⟨2, ![1, C]⟩ (![1] : Fin 1 → Fin 2))
    (hs : (⟨1, ![C]⟩ : Shape).ShapeCasts ⟨2, ![1, C]⟩) :
    broadcastInDim ⟨2, ![1, C]⟩ (![1] : Fin 1 → Fin 2) hb b = shapeCast ⟨2, ![1, C]⟩ b hs := by
  funext j
  obtain ⟨p, q, rfl⟩ : ∃ (p : Fin 1) (q : Fin C), j = ix2 p q := ⟨j 0, j 1, eq_ix2 j⟩
  obtain rfl : p = 0 := Subsingleton.elim _ _
  rw [Cert.Lib.Rows.shapeCast_vec_row_apply]
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

end Cert.Lib.RowForms

end
-- ==== Proof.Fold.lean ====
/-
  The idealized kernel's buffers at its segment boundaries, as the reference's stages of the arguments.

  @main alternates stretches of host operations with pallas_calls.  Boundary by boundary, each buffer that a
  later segment reads holds the value the reference computes at the same place, as a function of the argument
  arrays as launched: the edge lists with self loops, the symmetric normalisation 1/sqrt(deg(row))·1/sqrt(deg(col))
  (computed once here, twice by the reference: the same term), and, layer by layer, the linear map, the
  normalised gather–scatter aggregate, bias and ReLU, and the head.  A host stretch is the same operations in
  both programs, so its buffers agree as terms once the buffers it reads do; a pallas_call's output array is
  the host's whole-array form of its body (one module per call).
-/
import proofs.«148142_j67516885893240_1_alg».proof.Proof.Gen.KernelIdeal.Frame
import proofs.«148142_j67516885893240_1_alg».proof.Proof.Gen.ReferenceIdeal.Read
import proofs.«148142_j67516885893240_1_alg».proof.Proof.Region0
import proofs.«148142_j67516885893240_1_alg».proof.Proof.Region1
import proofs.«148142_j67516885893240_1_alg».proof.Proof.Region2
import proofs.«148142_j67516885893240_1_alg».proof.Proof.Region3
import proofs.«148142_j67516885893240_1_alg».proof.Proof.Region4
import proofs.«148142_j67516885893240_1_alg».proof.Proof.LibRowForms
import Idealize.ShloMosaic.Lib.StableHlo.Run

set_option maxRecDepth 16384

noncomputable section

namespace Cert.Gcn.Fold

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first stretch: the edge lists, the normalisation, the arguments -/

/-- Source nodes of the edges, self loops appended. -/
theorem w1_row : (W1 m ρ c (Proc.devRef .tc main_v3) : (⟨S850000, .i32⟩ : BufTy).Contents (Elt Ideal))
    = val_main_v3 (F := Ideal) (m ((c : Thread nD τ).loc main_arg1)) := by
  show StableHlo.after hostOps0 (W0 m ρ c) (Proc.devRef .tc main_v3) = _
  after_results_simp
  rfl

/-- Target nodes of the edges, self loops appended. -/
theorem w1_col : (W1 m ρ c (Proc.devRef .tc main_v6) : (⟨S850000, .i32⟩ : BufTy).Contents (Elt Ideal))
    = val_main_v6 (F := Ideal) (m ((c : Thread nD τ).loc main_arg1)) := by
  show StableHlo.after hostOps0 (W0 m ρ c) (Proc.devRef .tc main_v6) = _
  after_results_simp
  rfl

/-- The per-edge normalisation: the inverse square roots of the two end nodes' degrees (at least one), multiplied. -/
theorem w1_norm : (W1 m ρ c (Proc.devRef .tc main_v28) : (⟨S850000, .f32⟩ : BufTy).Contents (Elt Ideal))
    = val_main_v29 (F := Ideal) (m ((c : Thread nD τ).loc main_arg1)) := by
  show StableHlo.after hostOps0 (W0 m ρ c) (Proc.devRef .tc main_v28) = _
  after_results_simp
  rfl

/-- The first stretch writes no argument. -/
theorem w1_arg0 : W1 m ρ c (Proc.devRef .tc main_arg0) = (m ((c : Thread nD τ).loc main_arg0)) := by
  show StableHlo.after hostOps0 (W0 m ρ c) (Proc.devRef .tc main_arg0) = _
  after_results_simp <;> rfl
theorem w1_arg2 : W1 m ρ c (Proc.devRef .tc main_arg2) = (m ((c : Thread nD τ).loc main_arg2)) := by
  show StableHlo.after hostOps0 (W0 m ρ c) (Proc.devRef .tc main_arg2) = _
  after_results_simp <;> rfl
theorem w1_arg3 : W1 m ρ c (Proc.devRef .tc main_arg3) = (m ((c : Thread nD τ).loc main_arg3)) := by
  show StableHlo.after hostOps0 (W0 m ρ c) (Proc.devRef .tc main_arg3) = _
  after_results_simp <;> rfl
theorem w1_arg4 : W1 m ρ c (Proc.devRef .tc main_arg4) = (m ((c : Thread nD τ).loc main_arg4)) := by
  show StableHlo.after hostOps0 (W0 m ρ c) (Proc.devRef .tc main_arg4) = _
  after_results_simp <;> rfl
theorem w1_arg5 : W1 m ρ c (Proc.devRef .tc main_arg5) = (m ((c : Thread nD τ).loc main_arg5)) := by
  show StableHlo.after hostOps0 (W0 m ρ c) (Proc.devRef .tc main_arg5) = _
  after_results_simp <;> rfl
theorem w1_arg6 : W1 m ρ c (Proc.devRef .tc main_arg6) = (m ((c : Thread nD τ).loc main_arg6)) := by
  show StableHlo.after hostOps0 (W0 m ρ c) (Proc.devRef .tc main_arg6) = _
  after_results_simp <;> rfl
theorem w1_arg7 : W1 m ρ c (Proc.devRef .tc main_arg7) = (m ((c : Thread nD τ).loc main_arg7)) := by
  show StableHlo.after hostOps0 (W0 m ρ c) (Proc.devRef .tc main_arg7) = _
  after_results_simp <;> rfl

/-! ## After the first call: x · W1; everything else as before it -/

/-- The first layer's linear map. -/
theorem w2_lin : (W2 m ρ c (Proc.devRef .tc main_v29) : (⟨S50000x64, .f32⟩ : BufTy).Contents (Elt Ideal))
    = val_main_v7 (F := Ideal) (m ((c : Thread nD τ).loc main_arg0)) (m ((c : Thread nD τ).loc main_arg2)) := by
  refine (W2_arr m ρ c 2).trans ((Cert.Gcn.R0.array (V1 m ρ) c).trans ?_)
  show Host.dotGeneral (F := Ideal) (DotDims.plain 50000 256 64) none
    (W1 m ρ c (Proc.devRef .tc main_arg0) : FVec Ideal ⟨2, ![50000, 256]⟩ .f32)
    (W1 m ρ c (Proc.devRef .tc main_arg2) : FVec Ideal ⟨2, ![256, 64]⟩ .f32) = _
  rw [w1_arg0, w1_arg2]
  rfl

theorem w2_row : (W2 m ρ c (Proc.devRef .tc main_v3) : (⟨S850000, .i32⟩ : BufTy).Contents (Elt Ideal))
    = val_main_v3 (F := Ideal) (m ((c : Thread nD τ).loc main_arg1)) := (W2_of_ne m ρ c main_v3 (by decide)).trans (w1_row m ρ c)
theorem w2_col : (W2 m ρ c (Proc.devRef .tc main_v6) : (⟨S850000, .i32⟩ : BufTy).Contents (Elt Ideal))
    = val_main_v6 (F := Ideal) (m ((c : Thread nD τ).loc main_arg1)) := (W2_of_ne m ρ c main_v6 (by decide)).trans (w1_col m ρ c)
theorem w2_norm : (W2 m ρ c (Proc.devRef .tc main_v28) : (⟨S850000, .f32⟩ : BufTy).Contents (Elt Ideal))
    = val_main_v29 (F := Ideal) (m ((c : Thread nD τ).loc main_arg1)) := (W2_of_ne m ρ c main_v28 (by decide)).trans (w1_norm m ρ c)
theorem w2_arg3 : W2 m ρ c (Proc.devRef .tc main_arg3) = (m ((c : Thread nD τ).loc main_arg3)) := (W2_of_ne m ρ c main_arg3 (by decide)).trans (w1_arg3 m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)

/-! ## After the second stretch: the first layer's aggregate and its bias row -/

/-- The normalised gather–scatter aggregate of the first layer: the same host operations as the reference's, on
    buffers that hold the reference's values. -/
theorem w3_agg : (W3 m ρ c (Proc.devRef .tc main_v42) : (⟨S50000x64, .f32⟩ : BufTy).Contents (Elt Ideal))
    = val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v42) = _
  after_results_simp
  rw [w2_lin, w2_row, w2_col, w2_norm]
  rfl

/-- The bias as a row: the kernel reshapes the vector, the reference broadcasts it onto axis 1 — the same row. -/
theorem w3_bias : (W3 m ρ c (Proc.devRef .tc main_v43) : (⟨S1x64, .f32⟩ : BufTy).Contents (Elt Ideal))
    = val_main_v43 (F := Ideal) (m ((c : Thread nD τ).loc main_arg3)) := by
  show StableHlo.after hostOps1 (W2 m ρ c) (Proc.devRef .tc main_v43) = _
  after_results
  rw [w2_arg3]
  exact (Cert.Lib.RowForms.broadcastInDim_row_eq_shapeCast (C := 64) _ _ _).symm

theorem w3_row : (W3 m ρ c (Proc.devRef .tc main_v3) : (⟨S850000, .i32⟩ : BufTy).Contents (Elt Ideal))
    = val_main_v3 (F := Ideal) (m ((c : Thread nD τ).loc main_arg1)) := by
  show StableHlo.after hostOps1 (W2 m ρ c) (Proc.devRef .tc main_v3) = _
  after_results
  exact w2_row m ρ c
theorem w3_col : (W3 m ρ c (Proc.devRef .tc main_v6) : (⟨S850000, .i32⟩ : BufTy).Contents (Elt Ideal))
    = val_main_v6 (F := Ideal) (m ((c : Thread nD τ).loc main_arg1)) := by
  show StableHlo.after hostOps1 (W2 m ρ c) (Proc.devRef .tc main_v6) = _
  after_results
  exact w2_col m ρ c
theorem w3_norm : (W3 m ρ c (Proc.devRef .tc main_v28) : (⟨S850000, .f32⟩ : BufTy).Contents (Elt Ideal))
    = val_main_v29 (F := Ideal) (m ((c : Thread nD τ).loc main_arg1)) := by
  show StableHlo.after hostOps1 (W2 m ρ c) (Proc.devRef .tc main_v28) = _
  after_results
  exact w2_norm m ρ c
theorem w3_arg4 : W3 m ρ c (Proc.devRef .tc main_arg4) = (m ((c : Thread nD τ).loc main_arg4)) := by
  show StableHlo.after hostOps1 (W2 m ρ c) (Proc.devRef .tc main_arg4) = _
  after_results
  exact w2_arg4 m ρ c
theorem w3_arg5 : W3 m ρ c (Proc.devRef .tc main_arg5) = (m ((c : Thread nD τ).loc main_arg5)) := by
  show StableHlo.after hostOps1 (W2 m ρ c) (Proc.devRef .tc main_arg5) = _
  after_results
  exact w2_arg5 m ρ c
theorem w3_arg6 : W3 m ρ c (Proc.devRef .tc main_arg6) = (m ((c : Thread nD τ).loc main_arg6)) := by
  show StableHlo.after hostOps1 (W2 m ρ c) (Proc.devRef .tc main_arg6) = _
  after_results
  exact w2_arg6 m ρ c
theorem w3_arg7 : W3 m ρ c (Proc.devRef .tc main_arg7) = (m ((c : Thread nD τ).loc main_arg7)) := by
  show StableHlo.after hostOps1 (W2 m ρ c) (Proc.devRef .tc main_arg7) = _
  after_results
  exact w2_arg7 m ρ c

/-! ## After the second call: the first layer's activations -/

/-- max(aggregate + bias, 0), the reference's ReLU of its first layer. -/
theorem w4_act : (W4 m ρ c (Proc.devRef .tc main_v44) : (⟨S50000x64, .f32⟩ : BufTy).Contents (Elt Ideal))
    = val_main_v46 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Cert.Gcn.R1.array (V3 m ρ) Cert.ReferenceIdeal.Gen.bcast_S1x64_S50000x64_0_1
    Cert.ReferenceIdeal.Gen.bcast_S_S50000x64 c).trans ?_)
  show maximumf (addf (W3 m ρ c (Proc.devRef .tc main_v42) : FVec Ideal ⟨2, ![50000, 64]⟩ .f32)
      (broadcastInDim ⟨2, ![50000, 64]⟩ (![0, 1] : Fin 2 → Fin 2) Cert.ReferenceIdeal.Gen.bcast_S1x64_S50000x64_0_1
        (W3 m ρ c (Proc.devRef .tc main_v43) : FVec Ideal ⟨2, ![1, 64]⟩ .f32)))
    (broadcastInDim ⟨2, ![50000, 64]⟩ (![] : Fin 0 → Fin 2) Cert.ReferenceIdeal.Gen.bcast_S_S50000x64
      (constant (F := Ideal) ⟨0, ![]⟩ .f32 0x00000000#32)) = _
  rw [w3_agg, w3_bias]
  rfl

theorem w4_row : (W4 m ρ c (Proc.devRef .tc main_v3) : (⟨S850000, .i32⟩ : BufTy).Contents (Elt Ideal))
    = val_main_v3 (F := Ideal) (m ((c : Thread nD τ).loc main_arg1)) := (W4_of_ne m ρ c main_v3 (by decide)).trans (w3_row m ρ c)
theorem w4_col : (W4 m ρ c (Proc.devRef .tc main_v6) : (⟨S850000, .i32⟩ : BufTy).Contents (Elt Ideal))
    = val_main_v6 (F := Ideal) (m ((c : Thread nD τ).loc main_arg1)) := (W4_of_ne m ρ c main_v6 (by decide)).trans (w3_col m ρ c)
theorem w4_norm : (W4 m ρ c (Proc.devRef .tc main_v28) : (⟨S850000, .f32⟩ : BufTy).Contents (Elt Ideal))
    = val_main_v29 (F := Ideal) (m ((c : Thread nD τ).loc main_arg1)) := (W4_of_ne m ρ c main_v28 (by decide)).trans (w3_norm m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)

/-! ## After the third call: the second layer's linear map -/

theorem w5_lin : (W5 m ρ c (Proc.devRef .tc main_v45) : (⟨S50000x64, .f32⟩ : BufTy).Contents (Elt Ideal))
    = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Cert.Gcn.R2.array (V4 m ρ) c).trans ?_)
  show Host.dotGeneral (F := Ideal) (DotDims.plain 50000 64 64) none
    (W4 m ρ c (Proc.devRef .tc main_v44) : FVec Ideal ⟨2, ![50000, 64]⟩ .f32)
    (W4 m ρ c (Proc.devRef .tc main_arg4) : FVec Ideal ⟨2, ![64, 64]⟩ .f32) = _
  rw [w4_act, w4_arg4]
  rfl

theorem w5_row : (W5 m ρ c (Proc.devRef .tc main_v3) : (⟨S850000, .i32⟩ : BufTy).Contents (Elt Ideal))
    = val_main_v3 (F := Ideal) (m ((c : Thread nD τ).loc main_arg1)) := (W5_of_ne m ρ c main_v3 (by decide)).trans (w4_row m ρ c)
theorem w5_col : (W5 m ρ c (Proc.devRef .tc main_v6) : (⟨S850000, .i32⟩ : BufTy).Contents (Elt Ideal))
    = val_main_v6 (F := Ideal) (m ((c : Thread nD τ).loc main_arg1)) := (W5_of_ne m ρ c main_v6 (by decide)).trans (w4_col m ρ c)
theorem w5_norm : (W5 m ρ c (Proc.devRef .tc main_v28) : (⟨S850000, .f32⟩ : BufTy).Contents (Elt Ideal))
    = val_main_v29 (F := Ideal) (m ((c : Thread nD τ).loc main_arg1)) := (W5_of_ne m ρ c main_v28 (by decide)).trans (w4_norm m ρ c)
theorem w5_arg5 : W5 m ρ c (Proc.devRef .tc main_arg5) = (m ((c : Thread nD τ).loc main_arg5)) := (W5_of_ne m ρ c main_arg5 (by decide)).trans (w4_arg5 m ρ c)
theorem w5_arg6 : W5 m ρ c (Proc.devRef .tc main_arg6) = (m ((c : Thread nD τ).loc main_arg6)) := (W5_of_ne m ρ c main_arg6 (by decide)).trans (w4_arg6 m ρ c)
theorem w5_arg7 : W5 m ρ c (Proc.devRef .tc main_arg7) = (m ((c : Thread nD τ).loc main_arg7)) := (W5_of_ne m ρ c main_arg7 (by decide)).trans (w4_arg7 m ρ c)

/-! ## After the third stretch: the second layer's aggregate and its bias row -/

/-- The second layer's aggregate.  The reference computes the degrees and the normalisation again for this
    layer, from the same edge list by the same operations: the same term. -/
theorem w6_agg : (W6 m ρ c (Proc.devRef .tc main_v58) : (⟨S50000x64, .f32⟩ : BufTy).Contents (Elt Ideal))
    = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v58) = _
  after_results_simp
  rw [w5_lin, w5_row, w5_col, w5_norm]
  rfl

theorem w6_bias : (W6 m ρ c (Proc.devRef .tc main_v59) : (⟨S1x64, .f32⟩ : BufTy).Contents (Elt Ideal))
    = val_main_v83 (F := Ideal) (m ((c : Thread nD τ).loc main_arg5)) := by
  show StableHlo.after hostOps3 (W5 m ρ c) (Proc.devRef .tc main_v59) = _
  after_results
  rw [w5_arg5]
  exact (Cert.Lib.RowForms.broadcastInDim_row_eq_shapeCast (C := 64) _ _ _).symm

theorem w6_arg6 : W6 m ρ c (Proc.devRef .tc main_arg6) = (m ((c : Thread nD τ).loc main_arg6)) := by
  show StableHlo.after hostOps3 (W5 m ρ c) (Proc.devRef .tc main_arg6) = _
  after_results
  exact w5_arg6 m ρ c
theorem w6_arg7 : W6 m ρ c (Proc.devRef .tc main_arg7) = (m ((c : Thread nD τ).loc main_arg7)) := by
  show StableHlo.after hostOps3 (W5 m ρ c) (Proc.devRef .tc main_arg7) = _
  after_results
  exact w5_arg7 m ρ c

/-! ## After the fourth call: the second layer's activations -/

theorem w7_act : (W7 m ρ c (Proc.devRef .tc main_v60) : (⟨S50000x64, .f32⟩ : BufTy).Contents (Elt Ideal))
    = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Cert.Gcn.R3.array (V6 m ρ) Cert.ReferenceIdeal.Gen.bcast_S1x64_S50000x64_0_1
    Cert.ReferenceIdeal.Gen.bcast_S_S50000x64 c).trans ?_)
  show maximumf (addf (W6 m ρ c (Proc.devRef .tc main_v58) : FVec Ideal ⟨2, ![50000, 64]⟩ .f32)
      (broadcastInDim ⟨2, ![50000, 64]⟩ (![0, 1] : Fin 2 → Fin 2) Cert.ReferenceIdeal.Gen.bcast_S1x64_S50000x64_0_1
        (W6 m ρ c (Proc.devRef .tc main_v59) : FVec Ideal ⟨2, ![1, 64]⟩ .f32)))
    (broadcastInDim ⟨2, ![50000, 64]⟩ (![] : Fin 0 → Fin 2) Cert.ReferenceIdeal.Gen.bcast_S_S50000x64
      (constant (F := Ideal) ⟨0, ![]⟩ .f32 0x00000000#32)) = _
  rw [w6_agg, w6_bias]
  rfl

theorem w7_arg6 : W7 m ρ c (Proc.devRef .tc main_arg6) = (m ((c : Thread nD τ).loc main_arg6)) := (W7_of_ne m ρ c main_arg6 (by decide)).trans (w6_arg6 m ρ c)
theorem w7_arg7 : W7 m ρ c (Proc.devRef .tc main_arg7) = (m ((c : Thread nD τ).loc main_arg7)) := (W7_of_ne m ρ c main_arg7 (by decide)).trans (w6_arg7 m ρ c)

/-! ## After the last stretch: the head's bias row; the activations and Wfc as before it -/

theorem w8_bias : (W8 m ρ c (Proc.devRef .tc main_v61) : (⟨S1x4, .f32⟩ : BufTy).Contents (Elt Ideal))
    = val_main_v88 (F := Ideal) (m ((c : Thread nD τ).loc main_arg7)) := by
  show StableHlo.after hostOps4 (W7 m ρ c) (Proc.devRef .tc main_v61) = _
  after_results
  rw [w7_arg7]
  exact (Cert.Lib.RowForms.broadcastInDim_row_eq_shapeCast (C := 4) _ _ _).symm

theorem w8_act : (W8 m ρ c (Proc.devRef .tc main_v60) : (⟨S50000x64, .f32⟩ : BufTy).Contents (Elt Ideal))
    = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps4 (W7 m ρ c) (Proc.devRef .tc main_v60) = _
  after_results
  exact w7_act m ρ c
theorem w8_arg6 : W8 m ρ c (Proc.devRef .tc main_arg6) = (m ((c : Thread nD τ).loc main_arg6)) := by
  show StableHlo.after hostOps4 (W7 m ρ c) (Proc.devRef .tc main_arg6) = _
  after_results
  exact w7_arg6 m ρ c

/-! ## After the last call: the result -/

/-- The kernel's result array is the reference's last stage of the argument arrays. -/
theorem w9_out : (W9 m ρ c (Proc.devRef .tc main_v62) : (⟨S50000x4, .f32⟩ : BufTy).Contents (Elt Ideal))
    = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ((Cert.Gcn.R4.array (V8 m ρ) Cert.ReferenceIdeal.Gen.bcast_S1x4_S50000x4_0_1 c).trans ?_)
  show addf (Host.dotGeneral (F := Ideal) (DotDims.plain 50000 64 4) none
      (W8 m ρ c (Proc.devRef .tc main_v60) : FVec Ideal ⟨2, ![50000, 64]⟩ .f32)
      (W8 m ρ c (Proc.devRef .tc main_arg6) : FVec Ideal ⟨2, ![64, 4]⟩ .f32))
    (broadcastInDim ⟨2, ![50000, 4]⟩ (![0, 1] : Fin 2 → Fin 2) Cert.ReferenceIdeal.Gen.bcast_S1x4_S50000x4_0_1
      (W8 m ρ c (Proc.devRef .tc main_v61) : FVec Ideal ⟨2, ![1, 4]⟩ .f32)) = _
  rw [w8_act, w8_arg6, w8_bias]
  rfl

end Cert.Gcn.Fold

end
-- ==== Proof.lean ====
/- A two-layer graph convolution network on 50000 nodes and 800000 edges (plus one self loop per node), and a
   linear head: out = relu(Â · relu(Â · (x W1) + b1) W2 + b2) Wfc + bfc, where Â scatters, onto each edge's target
   node, the source node's row scaled by 1/sqrt(deg(source)) · 1/sqrt(deg(target)), the degrees counted over
   targets and taken at least one.

   The kernel computes the three linear maps and the two bias-and-ReLU steps in five pallas_calls, each over 25
   blocks of 2000 rows, and leaves the degree count, the normalisation, the gathers and the scatter-adds to host
   operations between the calls; the reference is host operations throughout.  At the ideal values (floats are
   extended reals, every operation exact, a change of float format the identity):
   * a block of rows times a whole weight matrix on the matrix unit, into a zero accumulator, is the same sum
     over the contraction index as the host's dot_general at those rows, and the blocks cover the array
     (Proof/Region0, Region2, Region4, over Proof/Payloads);
   * adding a bias row to every row of a block and taking the maximum with zero is the host's addition of a
     broadcast row and maximum with a broadcast zero; the bias row is the vector reshaped in the kernel and
     broadcast onto axis 1 in the reference: the same row (Proof/Region1, Region3);
   * the host operations between the calls are the reference's own, applied to buffers holding the reference's
     values; the reference recomputes the normalisation for its second layer, from the same edge list by the
     same operations (Proof/Fold: buffer by buffer along the kernel's nine segments).
   So both programs end with the same function of the argument arrays, with no algebraic law beyond reading
   both sides at an index, and no use of the inputs' finiteness.  The ideal pass rewrote nothing in the
   kernel, so its idealization is its own text read at the ideal values. -/
import proofs.«148142_j67516885893240_1_alg».proof.Defs
import proofs.«148142_j67516885893240_1_alg».proof.Proof.Gen.Kernel
import proofs.«148142_j67516885893240_1_alg».proof.Proof.Gen.Kernel.Skeleton
import proofs.«148142_j67516885893240_1_alg».proof.Proof.Gen.Kernel.Launch
import proofs.«148142_j67516885893240_1_alg».proof.Proof.Gen.Kernel.Points
import proofs.«148142_j67516885893240_1_alg».proof.Proof.Gen.Kernel.Frame
import proofs.«148142_j67516885893240_1_alg».proof.Proof.Gen.KernelIdeal
import proofs.«148142_j67516885893240_1_alg».proof.Proof.Gen.KernelIdeal.Skeleton
import proofs.«148142_j67516885893240_1_alg».proof.Proof.Gen.KernelIdeal.Launch
import proofs.«148142_j67516885893240_1_alg».proof.Proof.Gen.KernelIdeal.Points
import proofs.«148142_j67516885893240_1_alg».proof.Proof.Gen.KernelIdeal.Frame
import proofs.«148142_j67516885893240_1_alg».proof.Proof.Gen.ReferenceIdeal
import proofs.«148142_j67516885893240_1_alg».proof.Proof.Gen.Pre_finite_inputs
import proofs.«148142_j67516885893240_1_alg».proof.Proof.Gen.ReferenceIdeal.Run
import proofs.«148142_j67516885893240_1_alg».proof.Proof.Gen.ReferenceIdeal.Read
import proofs.«148142_j67516885893240_1_alg».proof.Proof.KernelRun
import proofs.«148142_j67516885893240_1_alg».proof.Proof.Fold
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both programs run, and the kernel's result array — what its last
    pallas_call leaves — is the reference's last stage of the same argument arrays. -/
theorem algebraic : Cert.algebraic_KernelIdeal_ReferenceIdeal := by
  intro m ρ m' ρ' _ hagree
  refine ⟨_, Cert.Gcn.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Gcn.Fold.w9_out m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
